-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x8 : Shape := ⟨2, ![800000, 8]⟩
abbrev S2x800000 : Shape := ⟨2, ![2, 800000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S128x128 : S_.BroadcastsInDim S128x128 (![] : Fin 0 → Fin S128x128.rank)
  reducesTo_S128x128_S_d0_1 : S128x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part1 {F : FTy → Type} [FloatOps F] (main_arg2 : IVec S2x800000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_c_6 : IVec S_ 32 := constantI S_ 32 0#32
  let main_v19 : IVec S2x800000 32 := broadcastInDim S2x800000 ![] bcast_S_S2x800000 main_c_6
  let main_v20 : IVec S2x800000 1 := cmpi .sge main_arg2 main_v19
  let main_c_7 : IVec S_ 1 := constantI S_ 1 1#1
  let main_v21 : IVec S_ 1 := (fun x v => Host.reduce IntOp.andi x v reducesTo_S2x800000_S_d0_1 h_S_) main_v20 main_c_7
  let main_v22 : IVec S_ 1 := andi main_v18 main_v21
  main_v22

def fn {F : FTy → Type} [FloatOps F] (main_arg0 : FVec F S50000x128 .f32) (main_arg1 : FVec F S800000x8 .f32) (main_arg2 : IVec S2x800000 32) (main_arg3 : FVec F S128x128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x8 .f32 := Host.absf main_arg1
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_v13 main_v16
-- ==== Kernel.lean ====
abbrev S50000x128 : Shape := ⟨2, ![50000, 128]⟩
abbrev S800000x8 : Shape := ⟨2, ![800000, 8]⟩
abbrev S2x800000 : Shape := ⟨2, ![2, 800000]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S5000x128 : Shape := ⟨2, ![5000, 128]⟩
abbrev S5000x1 : Shape := ⟨2, ![5000, 1]⟩
abbrev S5000 : Shape := ⟨1, ![5000]⟩

abbrev nBuf : Space → Nat
  | .hbm => 43
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000x8, .f32⟩
  | .hbm, ⟨2, _⟩ => ⟨S2x800000, .i32⟩
  | .hbm, ⟨3, _⟩ => ⟨S128x128, .f32⟩
  | .hbm, ⟨4, _⟩ => ⟨S128x128, .f32⟩
  | .hbm, ⟨5, _⟩ => ⟨S2x800000, .i32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S50000x128, .bf16⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .bf16⟩
  | .hbm, ⟨21, _⟩ => ⟨S_, .f32⟩
  | .hbm, ⟨22, _⟩ => ⟨S50000x128, .f32⟩
  | .hbm, ⟨23, _⟩ => ⟨S1600000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S50000x128, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S50000, .f32⟩
  | .hbm, ⟨37, _⟩ => ⟨S1600000x1, .i32⟩
  | .hbm, ⟨38, _⟩ => ⟨S50000, .f32⟩
  | .hbm, ⟨39, _⟩ => ⟨S128x128, .f32⟩
  | .hbm, ⟨40, _⟩ => ⟨S128x128, .f32⟩
  | .hbm, ⟨41, _⟩ => ⟨S50000x1, .f32⟩
  | .hbm, ⟨42, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S2x800000_S2x800000_S2x1600000_d1 : Shape.Concatenates [S2x800000, S2x800000] S2x1600000 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  transposes_S128x128_S128x128_1_0 : S128x128.Transposes [1, 0] S128x128
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S5000x1_S5000x128 : S5000x1.Broadcasts S5000x128
  reduces_S5000x128_S5000 : S5000x128.Reduces [1] S5000
  shapeCasts_S5000_S5000x1 : S5000.ShapeCasts S5000x1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x8 : Shape := ⟨2, ![800000, 8]⟩
abbrev S2x800000 : Shape := ⟨2, ![2, 800000]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x8, .f32⟩
  | .hbm, ⟨2, _⟩ => ⟨S2x800000, .i32⟩
  | .hbm, ⟨3, _⟩ => ⟨S128x128, .f32⟩
  | .hbm, ⟨4, _⟩ => ⟨S128x128, .f32⟩
  | .hbm, ⟨5, _⟩ => ⟨S2x800000, .i32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S128x128, .f32⟩
  | .hbm, ⟨12, _⟩ => ⟨S50000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S50000x128, .f32⟩
  | .hbm, ⟨24, _⟩ => ⟨S1600000x1, .i32⟩
  | .hbm, ⟨25, _⟩ => ⟨S50000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S50000, .f32⟩
  | .hbm, ⟨30, _⟩ => ⟨S1600000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S_, .f32⟩
  | .hbm, ⟨41, _⟩ => ⟨S_, .f32⟩
  | .hbm, ⟨42, _⟩ => ⟨S50000x128, .f32⟩
  | .hbm, ⟨43, _⟩ => ⟨S50000x128, .i1⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S_, .f32⟩
  | .hbm, ⟨51, _⟩ => ⟨S50000x128, .f32⟩
  | .hbm, ⟨52, _⟩ => ⟨S50000x128, .i1⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000, .f32⟩
  | .hbm, ⟨60, _⟩ => ⟨S50000x1, .f32⟩
  | .hbm, ⟨61, _⟩ => ⟨S50000x1, .f32⟩
  | .hbm, ⟨62, _⟩ => ⟨S_, .f32⟩
  | .hbm, ⟨63, _⟩ => ⟨S50000x1, .f32⟩
  | .hbm, ⟨64, _⟩ => ⟨S50000x1, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_call1_cst : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v31 : Ref sig .tc := ⟨.hbm, 56, rfl⟩
abbrev main_call2_v0 : Ref sig .tc := ⟨.hbm, 57, rfl⟩
abbrev main_call2_cst : Ref sig .tc := ⟨.hbm, 58, rfl⟩
abbrev main_call2_v1 : Ref sig .tc := ⟨.hbm, 59, rfl⟩
abbrev main_call2_v2 : Ref sig .tc := ⟨.hbm, 60, rfl⟩
abbrev main_v32 : Ref sig .tc := ⟨.hbm, 61, rfl⟩
abbrev main_cst_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩

abbrev nD : Nat := 1
abbrev τ : Topo := Topo.v7x

variable {F : FTy → Type} [FloatOps F]

class Facts₀ : Prop where
  concatenates_S2x800000_S2x800000_S2x1600000_d1 : Shape.Concatenates [S2x800000, S2x800000] S2x1600000 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

class Facts : Prop extends Facts₀ where

variable [Facts]
-- ==== Proof.LibRowOps.lean ====
/-
  Row-wise operations of a two-axis vector, read at an index (program-independent; imports only the library).

  A reduction along the rows of an `[a, b]` vector that keeps the reduced axis as a unit axis passes through three
  operations: the reduction itself into `[a]`, a shape cast of that into the column `[a, 1]`, and a broadcast of the
  column back to `[a, b]`. Read at `(i, j)`, the cast column at `(i, 0)` is entry `i` of the reduced vector, and the
  broadcast column at `(i, j)` is the column's entry `(i, 0)`: the value depends on the row alone. At the ideal values
  the reduction at row `i` is the sum over `k` of the entries `(i, k)`, or the fold of `max` over them from the
  accumulator's value, in any order.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- An `[a]` vector cast to the column `[a, 1]` reads, at `(i, z)`, the operand's entry `i`: both sit at row-major
    position `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column's entry `(i, 0)`: the row is kept and
    the unit axis is read at its only coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values a sum along the rows of an `[a, b]` vector is, at row `i`, the sum of that row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- At the ideal values a maximum along the rows of an `[a, b]` vector is, at row `i`, the fold of `max` over that
    row's entries from the accumulator's value, in any order. -/
theorem multiReduction_maximumf_row {a b : ℕ} {φ : FTy} (X : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  rw [hf]
  rfl

end Cert.RowOps

end
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.NormLaw.lean ====
/-
  The law that joins the two normalisations, on the extended reals (program-independent; imports only the library).

  One side scales a row by the reciprocal square root of `max s E`, the other divides it by `max (√s) D`, where
  `s` is the row's sum of squares, `D > 0` and `E = D · D`. The square root is monotone and `√(D · D) = D`, so
  `√(max s E) = max (√s) D`, and the reciprocal square root of a positive number is the inverse of its square root:
  the two scalings agree. Nothing is assumed of `s`: at `+∞` both factors are `0`, and below zero (where the square
  root is the junk value `-∞`) both clamps return the positive bound, so both factors are `1 / D`.
-/
import Idealize.ShloMosaic.PureOps.Ideal

noncomputable section

namespace Cert.NormLaw

open Idealize.ShloMosaic

/-- On the reals, the square root of the larger of `r` and `D · D` is the larger of `√r` and `D`. -/
theorem real_sqrt_max {r E D : ℝ} (hD : 0 ≤ D) (hE : E = D * D) : Real.sqrt (max r E) = max (Real.sqrt r) D := by
  have hsqE : Real.sqrt E = D := by rw [hE]; exact Real.sqrt_mul_self hD
  rcases le_total r E with h | h
  · have h' : Real.sqrt r ≤ D := by rw [← hsqE]; exact Real.sqrt_le_sqrt h
    rw [max_eq_right h, max_eq_right h', hsqE]
  · have h' : D ≤ Real.sqrt r := by rw [← hsqE]; exact Real.sqrt_le_sqrt h
    rw [max_eq_left h, max_eq_left h']

/-- The embedding of the reals keeps the larger of two numbers. -/
theorem coe_max (a b : ℝ) : ((max a b : ℝ) : EReal) = max (a : EReal) (b : EReal) :=
  EReal.coe_strictMono.monotone.map_max

/-- The reciprocal square root of `max s (D · D)` is the inverse of `max (√s) D`, for every extended real `s`. -/
theorem rsqrt_max_sq {D E : ℝ} (hD : 0 < D) (hE : E = D * D) (s : EReal) :
    Ideal.rsqrt (max s (E : EReal)) = (max (Ideal.sqrt s) (D : EReal))⁻¹ := by
  have hEpos : 0 < E := by rw [hE]; exact mul_pos hD hD
  have hsqE : Real.sqrt E = D := by rw [hE]; exact Real.sqrt_mul_self hD.le
  induction s using EReal.rec with
  | bot =>
    rw [max_eq_right (bot_le : (⊥ : EReal) ≤ (E : EReal)), Ideal.sqrt_bot,
      max_eq_right (bot_le : (⊥ : EReal) ≤ (D : EReal)), Ideal.rsqrt_coe, if_neg (not_lt.2 hEpos.le),
      if_neg hEpos.ne', hsqE, EReal.coe_inv]
  | top =>
    rw [max_eq_left (le_top : (E : EReal) ≤ ⊤), Ideal.sqrt_top, max_eq_left (le_top : (D : EReal) ≤ ⊤),
      Ideal.rsqrt_top, EReal.inv_top]
  | coe r =>
    have hM : 0 < max r E := lt_max_of_lt_right hEpos
    rw [← coe_max, Ideal.rsqrt_coe, if_neg (not_lt.2 hM.le), if_neg hM.ne', Ideal.sqrt_coe]
    by_cases hr : r < 0
    · rw [if_pos hr, max_eq_right (bot_le : (⊥ : EReal) ≤ (D : EReal)), max_eq_right (hr.le.trans hEpos.le), hsqE,
        EReal.coe_inv]
    · rw [if_neg hr, ← coe_max, real_sqrt_max hD.le hE, EReal.coe_inv]

/-- So scaling by the reciprocal square root of the clamped sum of squares is dividing by the clamped norm. -/
theorem mul_rsqrt_eq_div {D E : ℝ} (hD : 0 < D) (hE : E = D * D) (x s : EReal) :
    x * Ideal.rsqrt (max s (E : EReal)) = Ideal.div x (max (Ideal.sqrt s) (D : EReal)) := by
  have hpos : (0 : EReal) < max (Ideal.sqrt s) (D : EReal) :=
    lt_of_lt_of_le (EReal.coe_pos.2 hD) (le_max_right _ _)
  unfold Ideal.div
  rw [if_neg hpos.ne', rsqrt_max_sq hD hE]

/-- The clamp of the norm: the f32 word `0x2B8CBCCC` denotes `2305843 / 2^61`. -/
theorem ofBits_normClamp :
    Ideal.ofBits .f32 0x2B8CBCCC#32 = (((2305843 : ℝ) / 2305843009213693952 : ℝ) : EReal) := by
  simp [Ideal.ofBits, Ideal.ieee, -EReal.coe_mul]; norm_num

/-- Its square is the value the clamp of the sum of squares is named as. -/
theorem sq_normClamp : ((5316911940649 : ℝ) / 5316911983139663491615228241121378304)
    = ((2305843 : ℝ) / 2305843009213693952) * ((2305843 : ℝ) / 2305843009213693952) := by norm_num

theorem normClamp_pos : (0 : ℝ) < (2305843 : ℝ) / 2305843009213693952 := by norm_num

end Cert.NormLaw

end
-- ==== Proof.RowSpec.lean ====
/-
  What one output row is, as a function of one row of the inputs (imports the norm law and the library only).

  Row `r` of the result depends on row `r` of the node features `x`, row `r` of the summed neighbour features `S`,
  the number `c` of edges into node `r`, and the two (transposed) weight matrices. With `m_k = S_k / max c 1` the
  mean neighbour row, the activated row is

    a_j = lrelu (∑ₖ x_k · Ws[k, j] + lrelu (∑ₖ m_k · Wn[k, j])),   lrelu v = v if v ≥ 0 else 0.2 · v.

  One program scales `a` by the reciprocal square root of `max (∑ⱼ a_j²) E`; the other divides it by
  `max (√(0 + ∑ⱼ a_j²)) D`. With `E = D · D` and `D > 0` these are the same row (NormLaw).
  The constants enter as parameters, so that each program's spelling of them instantiates the same function.
-/
import proofs.«114932_j5806795784424_2_alg».proof.Proof.NormLaw
import Idealize.ShloMosaic.Lib.ValueIdx

noncomputable section

namespace Cert.RowSpec

open Idealize.ShloMosaic Idealize.ShloMosaic.ValueIdx

/-- The leaky rectifier on one extended real: `v` where `v ≥ zero`, else `slope · v`. -/
def lrelu (zero slope v : EReal) : EReal := Scalar.select (Ideal.cmp .oge v zero) v (slope * v)

/-- Entry `j` of the activated row. -/
def rowAct (zero one slope : EReal) (xr sr : Fin 128 → EReal) (c : EReal)
    (wsT wnT : (⟨2, ![128, 128]⟩ : Shape).Idx → EReal) (j : Fin 128) : EReal :=
  lrelu zero slope ((∑ k : Fin 128, xr k * wsT (ix2 k j))
    + lrelu zero slope (∑ k : Fin 128, Ideal.div (sr k) (max c one) * wnT (ix2 k j)))

/-- The row's sum of squares. -/
def rowSq (zero one slope : EReal) (xr sr : Fin 128 → EReal) (c : EReal)
    (wsT wnT : (⟨2, ![128, 128]⟩ : Shape).Idx → EReal) : EReal :=
  ∑ j : Fin 128, rowAct zero one slope xr sr c wsT wnT j * rowAct zero one slope xr sr c wsT wnT j

/-- The row scaled by the reciprocal square root of its clamped sum of squares. -/
def rowScaled (zero one slope clampSq : EReal) (xr sr : Fin 128 → EReal) (c : EReal)
    (wsT wnT : (⟨2, ![128, 128]⟩ : Shape).Idx → EReal) (j : Fin 128) : EReal :=
  rowAct zero one slope xr sr c wsT wnT j * Ideal.rsqrt (max (rowSq zero one slope xr sr c wsT wnT) clampSq)

/-- The row divided by its clamped norm, the sum of squares started from `init`. -/
def rowDivided (zero one slope init clamp : EReal) (xr sr : Fin 128 → EReal) (c : EReal)
    (wsT wnT : (⟨2, ![128, 128]⟩ : Shape).Idx → EReal) (j : Fin 128) : EReal :=
  Ideal.div (rowAct zero one slope xr sr c wsT wnT j)
    (max (Ideal.sqrt (init + rowSq zero one slope xr sr c wsT wnT)) clamp)

/-- The two normalisations give one row when the sum starts from zero and the clamps are `D > 0` and `D · D`. -/
theorem rowScaled_eq_rowDivided {D E : ℝ} (hD : 0 < D) (hE : E = D * D) (zero one slope : EReal)
    (xr sr : Fin 128 → EReal) (c : EReal) (wsT wnT : (⟨2, ![128, 128]⟩ : Shape).Idx → EReal) (j : Fin 128) :
    rowScaled zero one slope (E : EReal) xr sr c wsT wnT j = rowDivided zero one slope 0 (D : EReal) xr sr c wsT wnT j := by
  unfold rowScaled rowDivided
  rw [zero_add]
  exact NormLaw.mul_rsqrt_eq_div hD hE _ _

end Cert.RowSpec

end
-- ==== Proof.KernelPay.lean ====
/-
  The kernel body's result, read at an index.

  The body takes a block of 5000 rows of the node features, the same rows of the summed neighbour features and of the
  edge counts (a column), and the two transposed weight matrices whole. Its one store holds, at row `p` and column `j`,
  the scaled row of RowSpec computed from row `p` of the three blocks: the quotient by the clamped count, the two
  matrix products (into zero accumulators, so plain sums over the 128 contracted coordinates), the two rectifiers, the
  sum of squares along the row, its clamp by the named constant, the reciprocal square root and the product. Changes
  of float format are the identity at the ideal values, and a shape cast to the same shape is the identity.
-/
import proofs.«114932_j5806795784424_2_alg».proof.Proof.Gen.KernelIdeal.Skeleton
import proofs.«114932_j5806795784424_2_alg».proof.Proof.LibRowOps
import proofs.«114932_j5806795784424_2_alg».proof.Proof.LibPlainDot
import proofs.«114932_j5806795784424_2_alg».proof.Proof.RowSpec
import Idealize.ShloMosaic.Lib.ValueIdx
import Idealize.ShloMosaic.Lib.Pipeline.Value
import Idealize.ShloMosaic.PureOps.IdealRules

noncomputable section

namespace Cert.KernelIdeal.Payload

open Cert.KernelIdeal Cert.KernelIdeal.Gen Idealize.ShloMosaic Idealize.ShloMosaic.ValueIdx

/-- The constants of the body at the ideal values. -/
abbrev zeroK : EReal := Ideal.ofBits .f32 0x00000000#32
abbrev oneK : EReal := Ideal.ofBits .f32 0x3F800000#32
abbrev slopeK : EReal := Ideal.ofBits .f32 0x3E4CCCCD#32

/-- The clamp of the sum of squares is the value the certificate's table names. -/
theorem clampSq_eq : Named.named (F := Ideal) κ "eps_sq" (φ := .f32) 0x179ABE15#32
    = (((5316911940649 : ℝ) / 5316911983139663491615228241121378304 : ℝ) : EReal) :=
  IdealRules.named_const.ideal_named_scalar _ _ _ _ rfl

/-- The body's rectifier, on a block. -/
def leakyK (v : FVec Ideal S5000x128 .f32) : FVec Ideal S5000x128 .f32 :=
  select (cmpf .oge v (broadcast S5000x128 (Scalar.ofBits .f32 0x00000000#32))) v
    (mulf (broadcast S5000x128 (Scalar.ofBits .f32 0x3E4CCCCD#32)) v)

/-- The mean neighbour rows of a block: the sums divided by the counts clamped below at one. -/
def meanK (v1 : Vec Ideal S5000x128 .f32) (v3 : Vec Ideal S5000x1 .f32) : FVec Ideal S5000x128 .f32 :=
  divf (shapeCast S5000x128 v1 shapeCasts_S5000x128_S5000x128)
    (broadcastTo S5000x128 (maximumf (shapeCast S5000x1 v3 shapeCasts_S5000x1_S5000x1)
      (broadcast S5000x1 (Scalar.ofBits .f32 0x3F800000#32))) broadcasts_S5000x1_S5000x128)

/-- A block times a weight matrix, both narrowed to bf16, into the zero accumulator. -/
def projK (x : FVec Ideal S5000x128 .f32) (w : Vec Ideal S128x128 .f32) : FVec Ideal S5000x128 .f32 :=
  matmul dot_S5000x128_S128x128_S5000x128_1_0_0_1_n_n none (truncf .bf16 x bitsLt_bf16_f32)
    (truncf .bf16 (shapeCast S128x128 w shapeCasts_S128x128_S128x128) bitsLt_bf16_f32)
    (constant S5000x128 .f32 0x00000000#32)

/-- The activated block. -/
def actK (v0 v1 : Vec Ideal S5000x128 .f32) (v3 : Vec Ideal S5000x1 .f32) (v5 v7 : Vec Ideal S128x128 .f32) :
    FVec Ideal S5000x128 .f32 :=
  leakyK (addf (projK v0 v5) (leakyK (projK (meanK v1 v3) v7)))

/-- A block scaled, row by row, by the reciprocal square root of its clamped sum of squares. -/
def normK (a : FVec Ideal S5000x128 .f32) : FVec Ideal S5000x128 .f32 :=
  mulf a (broadcastTo S5000x128
    (rsqrt (maximumf
      (shapeCast S5000x1 (multiReduction .add [1] S5000 (mulf a a) 0x00000000#32 reduces_S5000x128_S5000 (.inl rfl) rfl)
        shapeCasts_S5000_S5000x1)
      (broadcast S5000x1 (Named.named κ "eps_sq" 0x179ABE15#32))))
    broadcasts_S5000x1_S5000x128)

/-- The body's store is the scaled activated block. -/
theorem pay_eq (v0 v1 : Vec Ideal S5000x128 .f32) (v3 : Vec Ideal S5000x1 .f32) (v5 v7 : Vec Ideal S128x128 .f32) :
    k0_pay1 v0 v1 v3 v5 v7 = normK (actK v0 v1 v3 v5 v7) := rfl

theorem leakyK_apply (v : FVec Ideal S5000x128 .f32) (i : S5000x128.Idx) :
    leakyK v i = RowSpec.lrelu zeroK slopeK (v i) := rfl

theorem meanK_apply (v1 : Vec Ideal S5000x128 .f32) (v3 : Vec Ideal S5000x1 .f32) (p : Fin 5000) (k : Fin 128) :
    meanK v1 v3 (ix2 p k) = Ideal.div (v1 (ix2 p k)) (max (v3 (ix2 p (0 : Fin 1))) oneK) := by
  unfold meanK
  rw [divf_apply, shapeCast_self, shapeCast_self, RowOps.broadcastTo_a1_ab_apply]
  rfl

theorem projK_apply (x : FVec Ideal S5000x128 .f32) (w : Vec Ideal S128x128 .f32) (p : Fin 5000) (j : Fin 128) :
    projK x w (ix2 p j) = ∑ k : Fin 128, x (ix2 p k) * w (ix2 k j) := by
  unfold projK
  rw [shapeCast_self]
  exact PlainDot.matmul_plain_apply (M := 5000) (K := 128) (N := 128) none _ _ p j

theorem actK_apply (v0 v1 : Vec Ideal S5000x128 .f32) (v3 : Vec Ideal S5000x1 .f32) (v5 v7 : Vec Ideal S128x128 .f32)
    (p : Fin 5000) (j : Fin 128) :
    actK v0 v1 v3 v5 v7 (ix2 p j)
      = RowSpec.rowAct zeroK oneK slopeK (fun k => v0 (ix2 p k)) (fun k => v1 (ix2 p k)) (v3 (ix2 p (0 : Fin 1))) v5 v7 j := by
  unfold actK RowSpec.rowAct
  rw [leakyK_apply, addf_apply, leakyK_apply, projK_apply, projK_apply]
  simp only [meanK_apply]

theorem normK_apply (a : FVec Ideal S5000x128 .f32) (p : Fin 5000) (j : Fin 128) :
    normK a (ix2 p j) = a (ix2 p j) * Ideal.rsqrt (max (∑ j' : Fin 128, a (ix2 p j') * a (ix2 p j'))
      (((5316911940649 : ℝ) / 5316911983139663491615228241121378304 : ℝ) : EReal)) := by
  unfold normK
  rw [mulf_apply, RowOps.broadcastTo_a1_ab_apply]
  show a (ix2 p j) * Ideal.rsqrt (max (shapeCast S5000x1 _ shapeCasts_S5000_S5000x1 (ix2 p (0 : Fin 1)))
    (Named.named (F := Ideal) κ "eps_sq" (φ := .f32) 0x179ABE15#32)) = _
  rw [RowOps.shapeCast_a_a1_apply, clampSq_eq]
  refine congrArg (fun s => a (ix2 p j) * Ideal.rsqrt (max s _)) ?_
  exact RowOps.multiReduction_add_row (mulf a a) _ _ _ _ p

/-- THE BODY'S RESULT AT AN INDEX: the scaled row of the three blocks' row `p`. -/
theorem pay_apply (v0 v1 : Vec Ideal S5000x128 .f32) (v3 : Vec Ideal S5000x1 .f32) (v5 v7 : Vec Ideal S128x128 .f32)
    (p : Fin 5000) (j : Fin 128) :
    k0_pay1 v0 v1 v3 v5 v7 (ix2 p j)
      = RowSpec.rowScaled zeroK oneK slopeK (((5316911940649 : ℝ) / 5316911983139663491615228241121378304 : ℝ) : EReal)
          (fun k => v0 (ix2 p k)) (fun k => v1 (ix2 p k)) (v3 (ix2 p (0 : Fin 1))) v5 v7 j := by
  rw [pay_eq, normK_apply]
  unfold RowSpec.rowScaled RowSpec.rowSq
  simp only [actK_apply]

end Cert.KernelIdeal.Payload

end
-- ==== Proof.KernelHost.lean ====
/-
  What the kernel's program computes on the host before it launches the dense kernel.

  The host doubles the edge list, cuts out its two index rows, reads negative indices from the end, gathers (from a
  bf16 copy of the node features, widened back) the feature row of the node each doubled edge reads from, adds those
  rows into the node each doubled edge adds into, counts the doubled edges per node, casts the counts to a column and
  transposes the two weight matrices. The dense kernel's windows then stage: the node features, the summed rows, the
  count column and the two transposed weights. Each is read here as a term of the argument arrays as launched.
-/
import proofs.«114932_j5806795784424_2_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F] [Named F]

/-- The doubled edge list: the edges followed, along the edge axis, by the edges with their two rows swapped. -/
def edgesBoth (e : IVec S2x800000 32) : IVec S2x1600000 32 :=
  concatenate S2x1600000 1 [⟨S2x800000, e⟩, ⟨S2x800000, Host.reverse [0] e⟩] concatenates_S2x800000_S2x800000_S2x1600000_d1

/-- Row 0 of the doubled list: the node each doubled edge adds INTO. -/
def srcRow (e : IVec S2x800000 32) : IVec S1600000 32 :=
  shapeCast S1600000 (extractStridedSlice S1x1600000 ![0, 0] (edgesBoth e) slices_S2x1600000_S1x1600000_0_0) shapeCasts_S1x1600000_S1600000

/-- Row 1 of the doubled list: the node each doubled edge reads FROM. -/
def dstRow (e : IVec S2x800000 32) : IVec S1600000 32 :=
  shapeCast S1600000 (extractStridedSlice S1x1600000 ![1, 0] (edgesBoth e) slices_S2x1600000_S1x1600000_1_0) shapeCasts_S1x1600000_S1600000

/-- A negative index counted from the end of the 50000 rows, as array indexing reads it. -/
def wrapIdx (i : IVec S1600000 32) : IVec S1600000 32 :=
  select (cmpi .slt i (broadcastInDim S1600000 ![] bcast_S_S1600000 (constantI S_ 32 0#32)))
    (addi i (broadcastInDim S1600000 ![] bcast_S_S1600000 (constantI S_ 32 50000#32))) i

/-- An index vector as the one-column index array a gather or scatter takes. -/
def idxCol (i : IVec S1600000 32) : IVec S1600000x1 32 := broadcastInDim S1600000x1 ![0] bcast_S1600000_S1600000x1_0 i

/-- Per doubled edge, the feature row of the node it reads from, through a bf16 copy widened back. -/
def gatheredRows (x : FVec F S50000x128 .f32) (e : IVec S2x800000 32) : FVec F S1600000x128 .f32 :=
  extf .f32 (Host.gather gather_S50000x128_S1600000x1_S1600000x128_1_0_n_n_0_1_1128 (truncf .bf16 x bitsLt_bf16_f32)
    (idxCol (wrapIdx (dstRow e)))) bitsLt_bf16_f32

/-- Per node, the sum of the gathered rows of the doubled edges that add into it (negative indices from the end). -/
def summedRows (x : FVec F S50000x128 .f32) (e : IVec S2x800000 32) : FVec F S50000x128 .f32 :=
  Host.scatterAdd scatter_S50000x128_S1600000x1_S1600000x128_1_0_0_1
    (broadcastInDim S50000x128 ![] bcast_S_S50000x128 (constant S_ .f32 0x00000000#32)) (idxCol (wrapIdx (srcRow e)))
    (gatheredRows x e)

/-- Per node, the number of doubled edges that add into it. -/
def edgeCounts (e : IVec S2x800000 32) : FVec F S50000 .f32 :=
  Host.scatterAdd scatter_S50000_S1600000x1_S1600000_n_0_0_1
    (broadcastInDim S50000 ![] bcast_S_S50000 (constant S_ .f32 0x00000000#32)) (idxCol (srcRow e))
    (broadcastInDim S1600000 ![] bcast_S_S1600000 (constant S_ .f32 0x3F800000#32))

/-- The counts as a column. -/
def countCol (e : IVec S2x800000 32) : FVec F S50000x1 .f32 :=
  shapeCast S50000x1 (edgeCounts (F := F) e) shapeCasts_S50000_S50000x1

/-- A weight matrix transposed. -/
def weightT (w : FVec F S128x128 .f32) : FVec F S128x128 .f32 :=
  transpose S128x128 [1, 0] w transposes_S128x128_S128x128_1_0

variable (m : (ℓ : Loc nD τ sig) → Buf (Elt F) ℓ)

attribute [local irreducible] Host.gather Host.scatterAdd Host.reverse concatenate extractStridedSlice transpose in
/-- The window of the summed rows stages that array. -/
theorem V_summed (c : Dev nD) :
    (V m c main_v22 : S50000x128.Idx → F .f32)
      = summedRows (m ((c : Thread nD τ).loc main_arg0)) (m ((c : Thread nD τ).loc main_arg2)) := by
  dsimp only [Gen.V, Gen.hostOps0]
  after_results_simp
  rfl

attribute [local irreducible] Host.gather Host.scatterAdd Host.reverse concatenate extractStridedSlice transpose in
/-- The window of the counts stages the count column. -/
theorem V_counts (c : Dev nD) :
    (V m c main_v29 : S50000x1.Idx → F .f32) = countCol (m ((c : Thread nD τ).loc main_arg2)) := by
  dsimp only [Gen.V, Gen.hostOps0]
  after_results_simp
  rfl

/-- The two weight windows stage the transposed weights. -/
theorem V_wself (c : Dev nD) :
    (V m c main_v27 : S128x128.Idx → F .f32) = weightT (m ((c : Thread nD τ).loc main_arg3)) := by
  dsimp only [Gen.V, Gen.hostOps0]
  after_results_simp
  rfl

theorem V_wneigh (c : Dev nD) :
    (V m c main_v28 : S128x128.Idx → F .f32) = weightT (m ((c : Thread nD τ).loc main_arg4)) := by
  dsimp only [Gen.V, Gen.hostOps0]
  after_results_simp
  rfl

end Cert.KernelIdeal.HostValue

end
-- ==== Proof.KernelFinal.lean ====
/-
  From the kernel's blocks to its result array.

  The dense kernel runs on a grid of ten points; point `t` stages rows `5000·t … 5000·t + 4999` of the node features, of
  the summed neighbour rows and of the count column, and the two transposed weight matrices whole, and writes back rows
  `5000·t … 5000·t + 4999` of the result. What it writes at row `p` of its block is the scaled row (RowSpec) of row
  `5000·t + p` of the staged arrays, so every point writes its block of ONE whole-array function, and the ten blocks
  cover the 50000 rows: the array ends holding that function, of the arrays the host prepared.
-/
import proofs.«114932_j5806795784424_2_alg».proof.Proof.Gen.KernelIdeal.Value
import proofs.«114932_j5806795784424_2_alg».proof.Proof.KernelPay
import proofs.«114932_j5806795784424_2_alg».proof.Proof.KernelHost

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

-- the host's gather and scatter-adds, and the body's arithmetic, are never opened here: only where their results sit
attribute [local irreducible] Host.gather Host.scatterAdd k0_pay1

variable (m : (ℓ : Loc nD τ sig) → Buf (Elt Ideal) ℓ) (ρ : Dev nD → PrngReg)

theorem hz : (![0, 0] : Fin 2 → Nat) = fun _ => 0 := funext fun a => by fin_cases a <;> rfl

/-- The value the clamp of the sum of squares is named as. -/
abbrev clampSq : EReal := (((5316911940649 : ℝ) / 5316911983139663491615228241121378304 : ℝ) : EReal)

/-- The result array as one function of the staged arrays: at `(r, j)` the scaled row of their row `r`. -/
def kernelOut (x s : S50000x128.Idx → EReal) (cc : S50000x1.Idx → EReal) (wsT wnT : S128x128.Idx → EReal) :
    S50000x128.Idx → EReal := fun i =>
  RowSpec.rowScaled Payload.zeroK Payload.oneK Payload.slopeK clampSq
    (fun k => x (ix2 (⟨(i 0).val, idx2_lt0 i⟩ : Fin 50000) k))
    (fun k => s (ix2 (⟨(i 0).val, idx2_lt0 i⟩ : Fin 50000) k))
    (cc (ix2 (⟨(i 0).val, idx2_lt0 i⟩ : Fin 50000) (0 : Fin 1))) wsT wnT ⟨(i 1).val, idx2_lt1 i⟩

theorem kernelOut_apply (x s : S50000x128.Idx → EReal) (cc : S50000x1.Idx → EReal) (wsT wnT : S128x128.Idx → EReal)
    (r : Fin 50000) (j : Fin 128) :
    kernelOut x s cc wsT wnT (ix2 r j)
      = RowSpec.rowScaled Payload.zeroK Payload.oneK Payload.slopeK clampSq (fun k => x (ix2 r k)) (fun k => s (ix2 r k))
          (cc (ix2 r (0 : Fin 1))) wsT wnT j := rfl

/-- The printed index maps over the ten grid points: the three row windows and the result window are at block
    `(t, 0)`, the two weight windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s blocks is row `5000·t + p` of the arrays. -/
def rowAt (t : Fin cfg0.N) (p : Fin 5000) : Fin 50000 :=
  ⟨t.val * 5000 + p.val, by have h : t.val < 10 := t.isLt; have := p.isLt; omega⟩

/-! ### The windows' geometry, over an arbitrary array

Each lemma reads an ARBITRARY array `A` through a window's block at point `t`: a block's coordinate is always
index × size + the coordinate inside the block. -/

/-- Window 0 (the node features): row `p` of block `t` is row `5000·t + p`. -/
theorem blk0_read (A : S50000x128.Idx → EReal) (t : Fin cfg0.N) (p : Fin 5000) (k : Fin 128) :
    ((cfg0.win 0).blk t).view.read (Elt Ideal) A (ix2 p k) = A (ix2 (rowAt t p) k) := by
  obtain ⟨e00, e01, -⟩ := idx_facts t
  show A (((cfg0.win 0).blk t).view.emb (ix2 p k)) = A (ix2 (rowAt t p) k)
  refine congrArg A ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- Window 1 (the summed rows): row `p` of block `t` is row `5000·t + p`. -/
theorem blk1_read (A : S50000x128.Idx → EReal) (t : Fin cfg0.N) (p : Fin 5000) (k : Fin 128) :
    ((cfg0.win 1).blk t).view.read (Elt Ideal) A (ix2 p k) = A (ix2 (rowAt t p) k) := by
  obtain ⟨-, -, e10, e11, -⟩ := idx_facts t
  show A (((cfg0.win 1).blk t).view.emb (ix2 p k)) = A (ix2 (rowAt t p) k)
  refine congrArg A ?_
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- Window 2 (the count column): row `p` of block `t` is row `5000·t + p`. -/
theorem blk2_read (A : S50000x1.Idx → EReal) (t : Fin cfg0.N) (p : Fin 5000) :
    ((cfg0.win 2).blk t).view.read (Elt Ideal) A (ix2 p (0 : Fin 1)) = A (ix2 (rowAt t p) (0 : Fin 1)) := by
  obtain ⟨-, -, -, -, e20, e21, -⟩ := idx_facts t
  show A (((cfg0.win 2).blk t).view.emb (ix2 p (0 : Fin 1))) = A (ix2 (rowAt t p) (0 : Fin 1))
  refine congrArg A ?_
  funext a; apply Fin.ext
  match a with
  | ⟨0, _⟩ => show win0_2.index t (0 : Fin 2) * 5000 + 1 * p.val = t.val * 5000 + p.val; omega
  | ⟨1, _⟩ => show win0_2.index t (1 : Fin 2) * 1 + 1 * 0 = 0; omega

/-- Window 3 (the self weights) stages its whole array at every point. -/
theorem blk3_read (A : S128x128.Idx → EReal) (t : Fin cfg0.N) :
    ((cfg0.win 3).blk t).view.read (Elt Ideal) A = A := by
  obtain ⟨-, -, -, -, -, -, e30, e31, -⟩ := idx_facts t
  funext y
  show A (((cfg0.win 3).blk t).view.emb y) = A y
  refine congrArg A ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 (the neighbour weights) stages its whole array at every point. -/
theorem blk4_read (A : S128x128.Idx → EReal) (t : Fin cfg0.N) :
    ((cfg0.win 4).blk t).view.read (Elt Ideal) A = A := by
  obtain ⟨-, -, -, -, -, -, -, -, e40, e41, -⟩ := idx_facts t
  funext y
  show A (((cfg0.win 4).blk t).view.emb y) = A y
  refine congrArg A ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5 (the result): row `p` of block `t` is row `5000·t + p`. -/
theorem blk5_read (A : S50000x128.Idx → EReal) (t : Fin cfg0.N) (p : Fin 5000) (j : Fin 128) :
    ((cfg0.win 5).blk t).view.read (Elt Ideal) A (ix2 p j) = A (ix2 (rowAt t p) j) := by
  obtain ⟨-, -, -, -, -, -, -, -, -, -, e50, e51⟩ := idx_facts t
  show A (((cfg0.win 5).blk t).view.emb (ix2 p j)) = A (ix2 (rowAt t p) j)
  refine congrArg A ?_
  funext a; apply Fin.ext
  match a with
  | ⟨0, _⟩ => show win0_5.index t (0 : Fin 2) * 5000 + 1 * p.val = t.val * 5000 + p.val; omega
  | ⟨1, _⟩ => show win0_5.index t (1 : Fin 2) * 128 + 1 * j.val = j.val; omega

/-- The result window hands the body's block through whole. -/
theorem cut5 (f : Vec Ideal S5000x128 .f32) (t : Fin cfg0.N) (y : S5000x128.Idx) :
    (cfg0.win 5).cut (grid0.coords t) f y = f y := rfl

/-! ### The staged blocks -/

theorem read0 (c : Dev nD) (t : Fin cfg0.N) (p : Fin 5000) (k : Fin 128) :
    iblk m c 0 t (ix2 p k) = V m c main_arg0 (ix2 (rowAt t p) k) := blk0_read (V m c main_arg0) t p k

theorem read1 (c : Dev nD) (t : Fin cfg0.N) (p : Fin 5000) (k : Fin 128) :
    iblk m c 1 t (ix2 p k) = V m c main_v22 (ix2 (rowAt t p) k) := blk1_read (V m c main_v22) t p k

theorem read2 (c : Dev nD) (t : Fin cfg0.N) (p : Fin 5000) :
    iblk m c 2 t (ix2 p (0 : Fin 1)) = V m c main_v29 (ix2 (rowAt t p) (0 : Fin 1)) := blk2_read (V m c main_v29) t p

theorem read3 (c : Dev nD) (t : Fin cfg0.N) : iblk m c 3 t = V m c main_v27 := blk3_read (V m c main_v27) t

theorem read4 (c : Dev nD) (t : Fin cfg0.N) : iblk m c 4 t = V m c main_v28 := blk4_read (V m c main_v28) t

/-- WHAT POINT `t` WRITES BACK is block `t` of `kernelOut` of the staged arrays. -/
theorem flushed_eq (c : Dev nD) (t : Fin cfg0.N) :
    (dats m 0 c).flushed 5 t = ((cfg0.win 5).blk t).view.read (Elt Ideal)
      (kernelOut (V m c main_arg0) (V m c main_v22) (V m c main_v29) (V m c main_v27) (V m c main_v28)) := by
  rw [Value.flushed5]
  unfold out0_5
  rw [View.canon_unit_zero hz]
  simp only [View.ld_unit_zero (S := S5000x128) hz, View.ld_unit_zero (S := S5000x1) hz, View.ld_unit_zero (S := S128x128) hz]
  funext y
  obtain ⟨p, j, rfl⟩ : ∃ (p : Fin 5000) (j : Fin 128), y = ix2 p j := ⟨y 0, y 1, eq_ix2 y⟩
  rw [cut5, blk5_read, kernelOut_apply]
  refine (Payload.pay_apply (iblk m c 0 t) (iblk m c 1 t) (iblk m c 2 t) (iblk m c 3 t) (iblk m c 4 t) p j).trans ?_
  simp only [read0 m c t p, read1 m c t p, read2 m c t p, read3 m c t, read4 m c t]

/-- An index of the result array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v30).slice (win0_5.rect t)).set ↔ _
  rw [View.set_slice_whole, Rect.mem_set_unit]
  exact Iff.rfl

/-- Every row of the result lies in the block of the point `row / 5000`. -/
theorem cover (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  have ht : (i 0).val / 5000 < 10 := by omega
  obtain ⟨-, -, -, -, -, -, -, -, -, -, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    omega

/-- THE RESULT ARRAY after the run is `kernelOut` of the staged arrays. -/
theorem final_staged (c : Dev nD) : (dats m 0 c).arrAt 5 cfg0.N
    = kernelOut (V m c main_arg0) (V m c main_v22) (V m c main_v29) (V m c main_v27) (V m c main_v28) :=
  (dats m 0 c).arrAt_eq_of_cover 5 _ (fun t _ => flushed_eq m c t) cover

/-- … and the staged arrays are what the host computed from the arguments as launched. -/
theorem final (c : Dev nD) : (dats m 0 c).arrAt 5 cfg0.N
    = kernelOut (m ((c : Thread nD τ).loc main_arg0))
        (HostValue.summedRows (F := Ideal) (m ((c : Thread nD τ).loc main_arg0)) (m ((c : Thread nD τ).loc main_arg2)))
        (HostValue.countCol (F := Ideal) (m ((c : Thread nD τ).loc main_arg2)))
        (HostValue.weightT (F := Ideal) (m ((c : Thread nD τ).loc main_arg3)))
        (HostValue.weightT (F := Ideal) (m ((c : Thread nD τ).loc main_arg4))) := by
  rw [final_staged, V_main_arg0, HostValue.V_summed, HostValue.V_counts, HostValue.V_wself, HostValue.V_wneigh]

/-- The kernel program's run with its result named: every weakly fair execution terminates with the result array at
    `kernelOut` of the host-prepared arrays, and the arguments unchanged. -/
theorem run : θ_run defs (onTc (τ := τ) (main (F := Ideal))) ⟨m, fun _ => 0, ρ⟩ fun r => ∀ c : Dev nD,
      r.2.mem ((c : Thread nD τ).loc main_v30)
        = kernelOut (m ((c : Thread nD τ).loc main_arg0))
            (HostValue.summedRows (F := Ideal) (m ((c : Thread nD τ).loc main_arg0)) (m ((c : Thread nD τ).loc main_arg2)))
            (HostValue.countCol (F := Ideal) (m ((c : Thread nD τ).loc main_arg2)))
            (HostValue.weightT (F := Ideal) (m ((c : Thread nD τ).loc main_arg3)))
            (HostValue.weightT (F := Ideal) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.EdgeRows.lean ====
/-
  The two index rows of the doubled edge list, and why a non-negative edge list needs no wrapping.

  The edges are a `[2, 800000]` array of node numbers. Doubling appends, along the edge axis, the same edges with their
  two rows swapped; row 0 of the doubled `[2, 1600000]` array says which node each doubled edge adds into, row 1 which
  node it reads from. Every entry of the doubled array, so of either row, is an entry of the edge array: the first
  800000 columns are the edges themselves and the last 800000 the swapped copy. Array indexing reads a negative index
  from the end (`i + 50000` where `i < 0`); where no entry is negative that correction is the identity.
-/
import proofs.«114932_j5806795784424_2_alg».proof.Proof.Gen.ReferenceIdeal
import Idealize.ShloMosaic.Lib.ValueIdx
import Idealize.ShloMosaic.Lib.Pipeline.Value

noncomputable section

namespace Cert.ReferenceIdeal.HandRun

open Cert.ReferenceIdeal Cert.ReferenceIdeal.Gen Idealize.ShloMosaic Idealize.ShloMosaic.ValueIdx

/-- The doubled edge list: the edges followed, along the edge axis, by the edges with their two rows swapped. -/
def edgesBoth (e : IVec S2x800000 32) : IVec S2x1600000 32 :=
  concatenate S2x1600000 1 [⟨S2x800000, e⟩, ⟨S2x800000, Host.reverse [0] e⟩] concatenates_S2x800000_S2x800000_S2x1600000_d1

/-- Row 0 of the doubled list: the node each doubled edge adds INTO. -/
def srcRow (e : IVec S2x800000 32) : IVec S1600000 32 :=
  shapeCast S1600000 (extractStridedSlice S1x1600000 ![0, 0] (edgesBoth e) slices_S2x1600000_S1x1600000_0_0) shapeCasts_S1x1600000_S1600000

/-- Row 1 of the doubled list: the node each doubled edge reads FROM. -/
def dstRow (e : IVec S2x800000 32) : IVec S1600000 32 :=
  shapeCast S1600000 (extractStridedSlice S1x1600000 ![1, 0] (edgesBoth e) slices_S2x1600000_S1x1600000_1_0) shapeCasts_S1x1600000_S1600000

/-- A negative index counted from the end of the 50000 rows, as array indexing reads it. -/
def wrapIdx (i : IVec S1600000 32) : IVec S1600000 32 :=
  select (cmpi .slt i (broadcastInDim S1600000 ![] bcast_S_S1600000 (constantI S_ 32 0#32)))
    (addi i (broadcastInDim S1600000 ![] bcast_S_S1600000 (constantI S_ 32 50000#32))) i

/-- An index vector as the one-column index array a gather or scatter takes. -/
def idxCol (i : IVec S1600000 32) : IVec S1600000x1 32 := broadcastInDim S1600000x1 ![0] bcast_S1600000_S1600000x1_0 i

/-- Every entry of the doubled edge list is an entry of the edge list: a column below 800000 is that column of the
    edges, a column from 800000 on is column `- 800000` of the edges with the rows swapped. -/
theorem edgesBoth_mem (e : IVec S2x800000 32) (k : S2x1600000.Idx) : ∃ i, edgesBoth e k = e i := by
  have h0 : (k 0).val < 2 := idx2_lt0 k
  have h1 : (k 1).val < 1600000 := idx2_lt1 k
  by_cases hk : (k 1).val < 800000
  · refine ⟨ix2 ⟨(k 0).val, h0⟩ ⟨(k 1).val, hk⟩, ?_⟩
    unfold edgesBoth
    exact concatenate_pair_apply_left (1 : Fin 2) e (Host.reverse [0] e) _ k rfl _
      (fun b => match b with | ⟨0, _⟩ => rfl | ⟨1, _⟩ => rfl)
  · have hk' : (k 1).val - 800000 < 800000 := by omega
    refine ⟨fun a => if a ∈ [(0 : Fin 2)] then (ix2 (⟨(k 0).val, h0⟩ : Fin 2) (⟨(k 1).val - 800000, hk'⟩ : Fin 800000) a).rev
      else ix2 (⟨(k 0).val, h0⟩ : Fin 2) (⟨(k 1).val - 800000, hk'⟩ : Fin 800000) a, ?_⟩
    unfold edgesBoth
    exact concatenate_pair_apply_right (1 : Fin 2) e (Host.reverse [0] e) _ k rfl rfl
      (ix2 (⟨(k 0).val, h0⟩ : Fin 2) (⟨(k 1).val - 800000, hk'⟩ : Fin 800000))
      (fun b hb => by
        have hb2 : b.val < 2 := b.isLt
        have hb1 : b.val ≠ 1 := fun h => hb (Fin.ext h)
        have hb0 : b = ⟨0, by decide⟩ := Fin.ext (by show b.val = 0; omega)
        subst hb0
        rfl)
      (by
        have e1 : (ix2 (⟨(k 0).val, h0⟩ : Fin 2) (⟨(k 1).val - 800000, hk'⟩ : Fin 800000) (1 : Fin 2)).val
            = (k 1).val - 800000 := rfl
        have e2 : S2x800000.size (1 : Fin 2) = 800000 := rfl
        show (ix2 (⟨(k 0).val, h0⟩ : Fin 2) (⟨(k 1).val - 800000, hk'⟩ : Fin 800000) (1 : Fin 2)).val
            + S2x800000.size (1 : Fin 2) = (k 1).val
        rw [e1, e2]
        omega)

/-- Every entry of row 0 of the doubled list is an entry of the edge list. -/
theorem srcRow_mem (e : IVec S2x800000 32) (j : S1600000.Idx) : ∃ i, srcRow e j = e i := by
  unfold srcRow shapeCast extractStridedSlice
  exact edgesBoth_mem e _

theorem ofBool_eq_one (b : Bool) : BitVec.ofBool b = 1#1 ↔ b = true := by cases b <;> decide

/-- A word that is at least zero, read signed, is not below zero. -/
theorem slt_zero_of_sge_zero (w : BitVec 32) (h : IntOp.cmpi .sge w 0#32 = 1#1) : IntOp.cmpi .slt w 0#32 = 0#1 := by
  unfold IntOp.cmpi at h
  rw [ofBool_eq_one] at h
  simp only [BitVec.sle, decide_eq_true_eq] at h
  have hs : w.slt 0#32 = false := by
    simp only [BitVec.slt, decide_eq_false_iff_not, not_lt]
    exact h
  unfold IntOp.cmpi
  show BitVec.ofBool (w.slt 0#32) = 0#1
  rw [hs]
  rfl

/-- Where no index is negative, reading negative indices from the end changes nothing. -/
theorem wrapIdx_eq (i : IVec S1600000 32) (h : ∀ j, IntOp.cmpi .sge (i j) 0#32 = 1#1) : wrapIdx i = i := by
  funext j
  show Scalar.select (IntOp.cmpi .slt (i j) 0#32) (IntOp.addi (i j) 50000#32) (i j) = i j
  rw [slt_zero_of_sge_zero (i j) (h j)]
  exact select_zero _ _

/-- For a non-negative edge list the row of nodes added into needs no wrapping. -/
theorem wrap_srcRow (e : IVec S2x800000 32) (he : ∀ i, IntOp.cmpi .sge (e i) 0#32 = 1#1) :
    wrapIdx (srcRow e) = srcRow e :=
  wrapIdx_eq _ fun j => by obtain ⟨i, hi⟩ := srcRow_mem e j; rw [hi]; exact he i

end Cert.ReferenceIdeal.HandRun

end
-- ==== Proof.RefRun.lean ====
/-
  The reference program's run, read back.

  The reference is a straight line of host operations: the two index rows cut out of the doubled edge list, the
  self product, the gather of destination rows and its scatter-add onto source rows, the count of edges per source row,
  the quotient by the clamped count, the neighbour product, two leaky rectifiers (each the called function's six
  operations and its select, listed here at the call site over that call's own buffers), the row norm (the called
  function's five operations) and the final quotient by the clamped norm. Listed in order, the program IS the
  sequence of these operations, so every weakly fair execution terminates and leaves each buffer at the value the
  operations compute from the launch contents.
-/
import proofs.«114932_j5806795784424_2_alg».proof.Proof.EdgeRows
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference's 62 host operations, in program order; a called function's operations stand where it is called. -/
abbrev ops : List (HloOp τ sig (Elt F)) :=
  [ unary main_arg2 main_v0 (Host.reverse [0] : (⟨S2x800000, .i32⟩ : BufTy).Contents (Elt F) → (⟨S2x800000, .i32⟩ : BufTy).Contents (Elt F)),
    binary main_arg2 main_v0 main_v1 ((fun a b => concatenate S2x1600000 1 [⟨S2x800000, a⟩, ⟨S2x800000, b⟩] concatenates_S2x800000_S2x800000_S2x1600000_d1) : (⟨S2x800000, .i32⟩ : BufTy).Contents (Elt F) → (⟨S2x800000, .i32⟩ : BufTy).Contents (Elt F) → (⟨S2x1600000, .i32⟩ : BufTy).Contents (Elt F)),
    unary main_v1 main_v2 ((extractStridedSlice S1x1600000 ![0, 0] · slices_S2x1600000_S1x1600000_0_0) : (⟨S2x1600000, .i32⟩ : BufTy).Contents (Elt F) → (⟨S1x1600000, .i32⟩ : BufTy).Contents (Elt F)),
    reshape main_v2 main_v3 rfl shapeCasts_S1x1600000_S1600000,
    unary main_v1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    unary main_arg3 main_v6 ((transpose S128x128 [1, 0] · transposes_S128x128_S128x128_1_0) : (⟨S128x128, .f32⟩ : BufTy).Contents (Elt F) → (⟨S128x128, .f32⟩ : BufTy).Contents (Elt F)),
    binary main_arg0 main_v6 main_v7 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v8 (broadcastInDim S1600000 ![] bcast_S_S1600000 : (⟨S_, .i32⟩ : BufTy).Contents (Elt F) → (⟨S1600000, .i32⟩ : BufTy).Contents (Elt F)),
    binary main_v5 main_v8 main_v9 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v10 (broadcastInDim S1600000 ![] bcast_S_S1600000 : (⟨S_, .i32⟩ : BufTy).Contents (Elt F) → (⟨S1600000, .i32⟩ : BufTy).Contents (Elt F)),
    binary main_v5 main_v10 main_v11 (addi : (⟨S1600000, .i32⟩ : BufTy).Contents (Elt F) → (⟨S1600000, .i32⟩ : BufTy).Contents (Elt F) → (⟨S1600000, .i32⟩ : BufTy).Contents (Elt F)),
    ternary main_v9 main_v11 main_v5 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v12 main_v13 (broadcastInDim S1600000x1 ![0] bcast_S1600000_S1600000x1_0 : (⟨S1600000, .i32⟩ : BufTy).Contents (Elt F) → (⟨S1600000x1, .i32⟩ : BufTy).Contents (Elt F)),
    binary main_arg0 main_v13 main_v14 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v15 (broadcastInDim S50000x128 ![] bcast_S_S50000x128 : (⟨S_, .f32⟩ : BufTy).Contents (Elt F) → (⟨S50000x128, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_1 (constant S_ .f32 0x3F800000#32),
    unary main_cst_1 main_v18 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v19 (broadcastInDim S50000 ![] bcast_S_S50000 : (⟨S_, .f32⟩ : BufTy).Contents (Elt F) → (⟨S50000, .f32⟩ : BufTy).Contents (Elt F)),
    unary main_v3 main_v20 (broadcastInDim S1600000x1 ![0] bcast_S1600000_S1600000x1_0 : (⟨S1600000, .i32⟩ : BufTy).Contents (Elt F) → (⟨S1600000x1, .i32⟩ : BufTy).Contents (Elt F)),
    ternary main_v19 main_v20 main_v18 main_v21 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_3 (constant S_ .f32 0x3F800000#32),
    unary main_cst_3 main_v22 (broadcastInDim S50000 ![] bcast_S_S50000 : (⟨S_, .f32⟩ : BufTy).Contents (Elt F) → (⟨S50000, .f32⟩ : BufTy).Contents (Elt F)),
    binary main_v21 main_v22 main_v23 (maximumf : (⟨S50000, .f32⟩ : BufTy).Contents (Elt F) → (⟨S50000, .f32⟩ : BufTy).Contents (Elt F) → (⟨S50000, .f32⟩ : BufTy).Contents (Elt F)),
    unary main_v23 main_v24 (broadcastInDim S50000x1 ![0] bcast_S50000_S50000x1_0 : (⟨S50000, .f32⟩ : BufTy).Contents (Elt F) → (⟨S50000x1, .f32⟩ : BufTy).Contents (Elt F)),
    unary main_v24 main_v25 (broadcastInDim S50000x128 ![0, 1] bcast_S50000x1_S50000x128_0_1 : (⟨S50000x1, .f32⟩ : BufTy).Contents (Elt F) → (⟨S50000x128, .f32⟩ : BufTy).Contents (Elt F)),
    binary main_v17 main_v25 main_v26 (Host.divf : (⟨S50000x128, .f32⟩ : BufTy).Contents (Elt F) → (⟨S50000x128, .f32⟩ : BufTy).Contents (Elt F) → (⟨S50000x128, .f32⟩ : BufTy).Contents (Elt F)),
    unary main_arg4 main_v27 ((transpose S128x128 [1, 0] · transposes_S128x128_S128x128_1_0) : (⟨S128x128, .f32⟩ : BufTy).Contents (Elt F) → (⟨S128x128, .f32⟩ : BufTy).Contents (Elt F)),
    binary main_v26 main_v27 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_4 (constant S_ .f32 0x3E4CCCCD#32),
    TRef.nullary main_call0.cst (constant S_ .f32 0x00000000#32),
    TRef.unary main_call0.cst main_call0.v0 (broadcastInDim S50000x128 ![] bcast_S_S50000x128),
    TRef.binary (.of main_v28) main_call0.v0 main_call0.v1 (cmpf .oge),
    TRef.unary (.of main_cst_4) main_call0.v2 id,
    TRef.unary main_call0.v2 main_call0.v3 (broadcastInDim S50000x128 ![] bcast_S_S50000x128),
    TRef.binary main_call0.v3 (.of main_v28) main_call0.v4 mulf,
    TRef.ternary main_call0.v1 (.of main_v28) main_call0.v4 main_call0.call0.v0 select,
    binary main_v7 main_v29 main_v30 (addf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3E4CCCCD#32),
    TRef.nullary main_call1.cst (constant S_ .f32 0x00000000#32),
    TRef.unary main_call1.cst main_call1.v0 (broadcastInDim S50000x128 ![] bcast_S_S50000x128),
    TRef.binary (.of main_v30) main_call1.v0 main_call1.v1 (cmpf .oge),
    TRef.unary (.of main_cst_5) main_call1.v2 id,
    TRef.unary main_call1.v2 main_call1.v3 (broadcastInDim S50000x128 ![] bcast_S_S50000x128),
    TRef.binary main_call1.v3 (.of main_v30) main_call1.v4 mulf,
    TRef.ternary main_call1.v1 (.of main_v30) main_call1.v4 main_call1.call0.v0 select,
    TRef.binary (.of main_v31) (.of main_v31) main_call2.v0 mulf,
    TRef.nullary main_call2.cst (constant S_ .f32 0x00000000#32),
    TRef.binary main_call2.v0 main_call2.cst main_call2.v1 (fun x v => Host.reduceAdd x v reducesTo_S50000x128_S50000_d1 h_S_),
    TRef.unary main_call2.v1 main_call2.v2 (broadcastInDim S50000x1 ![0] bcast_S50000_S50000x1_0),
    TRef.unary main_call2.v2 main_call2.v3 Host.sqrt,
    nullary main_cst_6 (constant S_ .f32 0x2B8CBCCC#32),
    unary main_cst_6 main_v33 (broadcastInDim S50000x1 ![] bcast_S_S50000x1 : (⟨S_, .f32⟩ : BufTy).Contents (Elt F) → (⟨S50000x1, .f32⟩ : BufTy).Contents (Elt F)),
    binary main_v32 main_v33 main_v34 (maximumf : (⟨S50000x1, .f32⟩ : BufTy).Contents (Elt F) → (⟨S50000x1, .f32⟩ : BufTy).Contents (Elt F) → (⟨S50000x1, .f32⟩ : BufTy).Contents (Elt F)),
    unary main_v34 main_v35 (broadcastInDim S50000x128 ![0, 1] bcast_S50000x1_S50000x128_0_1 : (⟨S50000x1, .f32⟩ : BufTy).Contents (Elt F) → (⟨S50000x128, .f32⟩ : BufTy).Contents (Elt F)),
    binary main_v31 main_v35 main_v36 (Host.divf : (⟨S50000x128, .f32⟩ : BufTy).Contents (Elt F) → (⟨S50000x128, .f32⟩ : BufTy).Contents (Elt F) → (⟨S50000x128, .f32⟩ : BufTy).Contents (Elt F)) ]

set_option maxRecDepth 2048 in
/-- The printed program is that list run in order: the called functions unfolded at their calls and the sequencing
    reassociated, the two sides are one chain of steps. -/
theorem main_eq (c : Dev nD) : main (F := F) c = seq ops := by
  simp only [main, fn_leaky_relu.body, fn_where.body, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., binary_bufs_sub .., unary_bufs_sub .., reshape_bufs_sub .., unary_bufs_sub .., reshape_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub ..⟩

/-- From any memory with zero counters every weakly fair execution of the reference terminates, and each TensorCore
    buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The reference's result as a term of its arguments -/

/-- Per doubled edge, the feature row of the node it reads from. -/
def gatheredRows (x : FVec F S50000x128 .f32) (e : IVec S2x800000 32) : FVec F S1600000x128 .f32 :=
  Host.gather gather_S50000x128_S1600000x1_S1600000x128_1_0_n_n_0_1_1128 x (idxCol (wrapIdx (dstRow e)))

/-- Per node, the sum of the gathered rows of the doubled edges that add into it. -/
def summedRows (x : FVec F S50000x128 .f32) (e : IVec S2x800000 32) : FVec F S50000x128 .f32 :=
  Host.scatterAdd scatter_S50000x128_S1600000x1_S1600000x128_1_0_0_1
    (broadcastInDim S50000x128 ![] bcast_S_S50000x128 (constant S_ .f32 0x00000000#32)) (idxCol (srcRow e)) (gatheredRows x e)

/-- Per node, the number of doubled edges that add into it. -/
def edgeCounts (e : IVec S2x800000 32) : FVec F S50000 .f32 :=
  Host.scatterAdd scatter_S50000_S1600000x1_S1600000_n_0_0_1
    (broadcastInDim S50000 ![] bcast_S_S50000 (constant S_ .f32 0x00000000#32)) (idxCol (srcRow e))
    (broadcastInDim S1600000 ![] bcast_S_S1600000 (constant S_ .f32 0x3F800000#32))

/-- The mean of the gathered rows per node, the count clamped below at one. -/
def meanRows (x : FVec F S50000x128 .f32) (e : IVec S2x800000 32) : FVec F S50000x128 .f32 :=
  Host.divf (summedRows x e)
    (broadcastInDim S50000x128 ![0, 1] bcast_S50000x1_S50000x128_0_1
      (broadcastInDim S50000x1 ![0] bcast_S50000_S50000x1_0
        (maximumf (edgeCounts e) (broadcastInDim S50000 ![] bcast_S_S50000 (constant S_ .f32 0x3F800000#32)))))

/-- The leaky rectifier with slope 0.2 below zero, entry by entry. -/
def leaky (v : FVec F S50000x128 .f32) : FVec F S50000x128 .f32 :=
  select (cmpf .oge v (broadcastInDim S50000x128 ![] bcast_S_S50000x128 (constant S_ .f32 0x00000000#32))) v
    (mulf (broadcastInDim S50000x128 ![] bcast_S_S50000x128 (constant S_ .f32 0x3E4CCCCD#32)) v)

/-- The activated sum of the self projection and the rectified neighbour projection. -/
def activated (x : FVec F S50000x128 .f32) (e : IVec S2x800000 32) (ws wn : FVec F S128x128 .f32) : FVec F S50000x128 .f32 :=
  leaky (addf
    (Host.dotGeneral dot_S50000x128_S128x128_S50000x128_1_0_0_1_n_n none x (transpose S128x128 [1, 0] ws transposes_S128x128_S128x128_1_0))
    (leaky (Host.dotGeneral dot_S50000x128_S128x128_S50000x128_1_0_0_1_n_n none (meanRows x e)
      (transpose S128x128 [1, 0] wn transposes_S128x128_S128x128_1_0))))

/-- The Euclidean norm of each row, as a column. -/
def normCol (a : FVec F S50000x128 .f32) : FVec F S50000x1 .f32 :=
  Host.sqrt (broadcastInDim S50000x1 ![0] bcast_S50000_S50000x1_0
    (Host.reduceAdd (mulf a a) (constant S_ .f32 0x00000000#32) reducesTo_S50000x128_S50000_d1 h_S_))

/-- A matrix divided, row by row, by its row norm clamped below at the constant `0x2B8CBCCC`. -/
def normalized (a : FVec F S50000x128 .f32) : FVec F S50000x128 .f32 :=
  Host.divf a (broadcastInDim S50000x128 ![0, 1] bcast_S50000x1_S50000x128_0_1
    (maximumf (normCol a) (broadcastInDim S50000x1 ![] bcast_S_S50000x1 (constant S_ .f32 0x2B8CBCCC#32))))

/-- The reference's result. -/
def refOut (x : FVec F S50000x128 .f32) (e : IVec S2x800000 32) (ws wn : FVec F S128x128 .f32) : FVec F S50000x128 .f32 :=
  normalized (activated x e ws wn)

attribute [local irreducible] Host.gather Host.scatterAdd Host.reduceAdd Host.reverse Host.divf Host.sqrt concatenate extractStridedSlice transpose broadcastInDim shapeCast in
set_option maxRecDepth 8192 in
set_option maxHeartbeats 800000 in
/-- The fold of the operations at the result buffer is that term of the launch contents of the arguments: each
    operation's result is read at the buffer it writes and passed over at every other, by computation. -/
theorem out_eq (V : Valuation τ sig (Elt F)) :
    after ops V (main_v36 : DevRef τ sig)
      = refOut (V (main_arg0 : DevRef τ sig)) (V (main_arg2 : DevRef τ sig)) (V (main_arg3 : DevRef τ sig)) (V (main_arg4 : DevRef τ sig)) := by
  after_results_simp
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl

/-- The run with the result named: every weakly fair execution of the reference terminates with its result at
    `refOut` of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
          = refOut (m ((c.tc : Thread nD τ).loc main_arg0)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v36).trans (out_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

end Cert.ReferenceIdeal.HandRun

end
-- ==== Proof.LibColumnOps.lean ====
/-
  A vector kept as a column, and a column spread along the rows, as the host spells them (program-independent;
  imports only the library).

  The host writes "keep the reduced axis" as a broadcast of the `[a]` vector into the column `[a, 1]` along axis 0, and
  "divide every row by its own number" as a broadcast of the column `[a, 1]` into `[a, b]` along both axes. Read at an
  index, the first is the vector's entry at the row, and the second the column's entry at the row: the value depends
  on the row alone.
-/
import Idealize.ShloMosaic.Lib.ValueIdx
import Idealize.ShloMosaic.Lib.Pipeline.Value

noncomputable section

namespace Cert.ColumnOps

open Idealize.ShloMosaic Idealize.ShloMosaic.ValueIdx

variable {α : Type}

/-- An `[a]` vector broadcast along axis 0 into the column `[a, 1]` reads, at `(i, z)`, the vector's entry `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (z : Fin 1) :
    broadcastInDim ⟨2, ![a, 1]⟩ ![0] h x (ix2 i z) = x (ix1 i) :=
  broadcastInDim_apply _ h x _ _ (fun c => match c with
    | ⟨0, _⟩ => by
      show i.val = if a = 1 then 0 else i.val
      by_cases ha : a = 1
      · rw [if_pos ha]; have := i.isLt; omega
      · rw [if_neg ha])

/-- A column `[a, 1]` broadcast along both axes into `[a, b]` reads, at `(i, j)`, the column's entry `(i, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

end Cert.ColumnOps

end
-- ==== Proof.RefRead.lean ====
/-
  The reference's result, read at an index.

  At row `r` and column `j` the reference's result is the divided row of RowSpec computed from row `r` of the node
  features, row `r` of the summed neighbour rows, entry `r` of the edge counts, and the two transposed weights: the
  host's quotients are the same division, its general products are plain sums over the 128 contracted coordinates,
  its rectifier is the same comparison and select, its sum along a row starts from the constant zero, and its
  broadcasts of a vector to a column and of a column along the rows depend on the row alone.
-/
import proofs.«114932_j5806795784424_2_alg».proof.Proof.RefRun
import proofs.«114932_j5806795784424_2_alg».proof.Proof.LibRowOps
import proofs.«114932_j5806795784424_2_alg».proof.Proof.LibColumnOps
import proofs.«114932_j5806795784424_2_alg».proof.Proof.LibPlainDot
import proofs.«114932_j5806795784424_2_alg».proof.Proof.RowSpec
import Idealize.ShloMosaic.Lib.ValueIdx
import Idealize.ShloMosaic.Lib.IdealHost
import Idealize.ShloMosaic.PureOps.Ideal.Laws

noncomputable section

namespace Cert.ReferenceIdeal.RefRead

open Cert.ReferenceIdeal Cert.ReferenceIdeal.Gen Cert.ReferenceIdeal.HandRun Idealize.ShloMosaic Idealize.ShloMosaic.ValueIdx

-- the gather and the scatter-adds are never opened here: only what is done to their results is read
attribute [local irreducible] Host.gather Host.scatterAdd

/-- The constants of the reference at the ideal values. -/
abbrev zeroR : EReal := Ideal.ofBits .f32 0x00000000#32
abbrev oneR : EReal := Ideal.ofBits .f32 0x3F800000#32
abbrev slopeR : EReal := Ideal.ofBits .f32 0x3E4CCCCD#32
abbrev clampR : EReal := Ideal.ofBits .f32 0x2B8CBCCC#32

theorem leaky_apply (v : FVec Ideal S50000x128 .f32) (i : S50000x128.Idx) :
    leaky v i = RowSpec.lrelu zeroR slopeR (v i) := rfl

/-- The quotient of a matrix by a count vector clamped below at one, spread along the rows. -/
def meanOf (s : FVec Ideal S50000x128 .f32) (cnt : FVec Ideal S50000 .f32) : FVec Ideal S50000x128 .f32 :=
  Host.divf s
    (broadcastInDim S50000x128 ![0, 1] bcast_S50000x1_S50000x128_0_1
      (broadcastInDim S50000x1 ![0] bcast_S50000_S50000x1_0
        (maximumf cnt (broadcastInDim S50000 ![] bcast_S_S50000 (constant S_ .f32 0x3F800000#32)))))

theorem meanRows_eq (x : FVec Ideal S50000x128 .f32) (e : IVec S2x800000 32) :
    meanRows x e = meanOf (summedRows x e) (edgeCounts (F := Ideal) e) := rfl

/-- That quotient at `(r, k)`: the entry over the count of row `r` clamped below at one. -/
theorem meanOf_apply (s : FVec Ideal S50000x128 .f32) (cnt : FVec Ideal S50000 .f32) (r : Fin 50000) (k : Fin 128) :
    meanOf s cnt (ix2 r k) = Ideal.div (s (ix2 r k)) (max (cnt (ix1 r)) oneR) := by
  unfold meanOf
  rw [hostDivf_apply, ColumnOps.broadcastInDim_a1_ab_apply, ColumnOps.broadcastInDim_a_a1_apply, maximumf_apply]
  rfl

/-- The host's product of a `[50000, 128]` matrix by a `[128, 128]` matrix at `(r, j)`. -/
theorem proj_apply (X : FVec Ideal S50000x128 .f32) (W : FVec Ideal S128x128 .f32) (r : Fin 50000) (j : Fin 128) :
    Host.dotGeneral dot_S50000x128_S128x128_S50000x128_1_0_0_1_n_n none X W (ix2 r j)
      = ∑ k : Fin 128, X (ix2 r k) * W (ix2 k j) :=
  PlainDot.dotGeneral_plain_apply (M := 50000) (K := 128) (N := 128) none _ X W r j

/-- The activated sum of two projections, of a matrix and of a mean matrix. -/
def activatedOf (x mean : FVec Ideal S50000x128 .f32) (wsT wnT : FVec Ideal S128x128 .f32) : FVec Ideal S50000x128 .f32 :=
  leaky (addf (Host.dotGeneral dot_S50000x128_S128x128_S50000x128_1_0_0_1_n_n none x wsT)
    (leaky (Host.dotGeneral dot_S50000x128_S128x128_S50000x128_1_0_0_1_n_n none mean wnT)))

theorem activated_eq (x : FVec Ideal S50000x128 .f32) (e : IVec S2x800000 32) (ws wn : FVec Ideal S128x128 .f32) :
    activated x e ws wn = activatedOf x (meanOf (summedRows x e) (edgeCounts (F := Ideal) e))
      (transpose S128x128 [1, 0] ws transposes_S128x128_S128x128_1_0)
      (transpose S128x128 [1, 0] wn transposes_S128x128_S128x128_1_0) := rfl

/-- The activated matrix at `(r, j)`, over the mean's own data. -/
theorem activatedOf_apply (x s : FVec Ideal S50000x128 .f32) (cnt : FVec Ideal S50000 .f32)
    (wsT wnT : FVec Ideal S128x128 .f32) (r : Fin 50000) (j : Fin 128) :
    activatedOf x (meanOf s cnt) wsT wnT (ix2 r j)
      = RowSpec.rowAct zeroR oneR slopeR (fun k => x (ix2 r k)) (fun k => s (ix2 r k)) (cnt (ix1 r)) wsT wnT j := by
  unfold activatedOf RowSpec.rowAct
  rw [leaky_apply, addf_apply, leaky_apply, proj_apply, proj_apply]
  simp only [meanOf_apply]

/-- The host's square root, entry by entry. -/
theorem hostSqrt_apply {s : Shape} {φ : FTy} (x : FVec Ideal s φ) (i : s.Idx) : Host.sqrt x i = Ideal.sqrt (x i) := rfl

/-- The row norms, as a column, at `(r, 0)`: the square root of zero plus the row's sum of squares. -/
theorem normCol_apply (a : FVec Ideal S50000x128 .f32) (r : Fin 50000) :
    normCol a (ix2 r (0 : Fin 1)) = Ideal.sqrt (zeroR + ∑ j' : Fin 128, a (ix2 r j') * a (ix2 r j')) := by
  have hR : S50000x128.Reduces [1] S50000 := by decide
  unfold normCol
  rw [hostSqrt_apply, ColumnOps.broadcastInDim_a_a1_apply, hostReduceAdd_apply]
  refine congrArg Ideal.sqrt ?_
  refine (Ideal.hostReduceAdd_single reducesTo_S50000x128_S50000_d1 hR (mulf a a) _ (ix1 r)).trans ?_
  exact congrArg (zeroR + ·) (Finset.sum_congr rfl fun k _ => congrArg (mulf a a) (RowOps.lift_row hR r k))

/-- A matrix divided by its clamped row norms, at `(r, j)`. -/
theorem normalized_apply (a : FVec Ideal S50000x128 .f32) (r : Fin 50000) (j : Fin 128) :
    normalized a (ix2 r j)
      = Ideal.div (a (ix2 r j)) (max (Ideal.sqrt (zeroR + ∑ j' : Fin 128, a (ix2 r j') * a (ix2 r j'))) clampR) := by
  unfold normalized
  rw [hostDivf_apply, ColumnOps.broadcastInDim_a1_ab_apply, maximumf_apply, normCol_apply]
  rfl

/-- THE REFERENCE'S RESULT AT AN INDEX: the divided row of row `r` of its inputs. -/
theorem refOut_apply (x : FVec Ideal S50000x128 .f32) (e : IVec S2x800000 32) (ws wn : FVec Ideal S128x128 .f32)
    (r : Fin 50000) (j : Fin 128) :
    refOut x e ws wn (ix2 r j)
      = RowSpec.rowDivided zeroR oneR slopeR zeroR clampR (fun k => x (ix2 r k)) (fun k => summedRows x e (ix2 r k))
          (edgeCounts (F := Ideal) e (ix1 r))
          (transpose S128x128 [1, 0] ws transposes_S128x128_S128x128_1_0)
          (transpose S128x128 [1, 0] wn transposes_S128x128_S128x128_1_0) j := by
  unfold refOut
  rw [normalized_apply, activated_eq]
  unfold RowSpec.rowDivided RowSpec.rowSq
  simp only [activatedOf_apply]

end Cert.ReferenceIdeal.RefRead

end
-- ==== Proof.Bridge.lean ====
/-
  The two result arrays are one function of the arguments.

  The kernel's program and the reference prepare the same arrays: the doubled edge list and its two rows are the same
  operations; where no edge index is negative, reading negative indices from the end (which only the kernel's
  scatter-add does to the row of nodes added into) changes nothing; a gather through a bf16 copy widened back is the
  gather at the ideal values; the counts are the same scatter-add, kept as a column by one program and broadcast
  into one by the other; the weights are transposed by both. Row by row the kernel's array is then the scaled row and
  the reference's the divided row of the same data, which agree because the kernel's clamp of the sum of squares is
  named as the square of the reference's clamp of the norm (RowSpec, NormLaw).
-/
import proofs.«114932_j5806795784424_2_alg».proof.Proof.KernelFinal
import proofs.«114932_j5806795784424_2_alg».proof.Proof.RefRead

noncomputable section

namespace Cert.Bridge

open Idealize.ShloMosaic Idealize.ShloMosaic.ValueIdx

/-- The two normalisations, with each program's spelling of the three constants. -/
theorem rowScaled_eq_rowDivided_of {D E : ℝ} (hD : 0 < D) (hE : E = D * D) (zero one slope init clamp clampSq : EReal)
    (hinit : init = 0) (hclamp : clamp = (D : EReal)) (hsq : clampSq = (E : EReal))
    (xr sr : Fin 128 → EReal) (c : EReal) (wsT wnT : (⟨2, ![128, 128]⟩ : Shape).Idx → EReal) (j : Fin 128) :
    RowSpec.rowScaled zero one slope clampSq xr sr c wsT wnT j
      = RowSpec.rowDivided zero one slope init clamp xr sr c wsT wnT j := by
  subst hinit hclamp hsq
  exact RowSpec.rowScaled_eq_rowDivided hD hE zero one slope xr sr c wsT wnT j

/-- For a non-negative edge list both programs sum the same gathered rows into the same nodes. -/
theorem summedRows_eq (x : FVec Ideal Cert.ReferenceIdeal.S50000x128 .f32) (e : IVec Cert.ReferenceIdeal.S2x800000 32)
    (he : ∀ i, IntOp.cmpi .sge (e i) 0#32 = 1#1) :
    Cert.KernelIdeal.HostValue.summedRows (F := Ideal) x e = Cert.ReferenceIdeal.HandRun.summedRows (F := Ideal) x e := by
  have hw : Cert.KernelIdeal.HostValue.wrapIdx (Cert.KernelIdeal.HostValue.srcRow e) = Cert.ReferenceIdeal.HandRun.srcRow e :=
    (rfl : Cert.KernelIdeal.HostValue.wrapIdx (Cert.KernelIdeal.HostValue.srcRow e)
      = Cert.ReferenceIdeal.HandRun.wrapIdx (Cert.ReferenceIdeal.HandRun.srcRow e)).trans
      (Cert.ReferenceIdeal.HandRun.wrap_srcRow e he)
  unfold Cert.KernelIdeal.HostValue.summedRows
  rw [hw]
  rfl

/-- The count column at row `r` is the count of row `r`. -/
theorem countCol_apply (e : IVec Cert.ReferenceIdeal.S2x800000 32) (r : Fin 50000) :
    Cert.KernelIdeal.HostValue.countCol (F := Ideal) e (ix2 r (0 : Fin 1))
      = Cert.ReferenceIdeal.HandRun.edgeCounts (F := Ideal) e (ix1 r) := by
  unfold Cert.KernelIdeal.HostValue.countCol
  rw [Cert.RowOps.shapeCast_a_a1_apply]
  rfl

/-- THE BRIDGE: for a non-negative edge list the kernel's result array is the reference's. -/
theorem out_eq (x : FVec Ideal Cert.ReferenceIdeal.S50000x128 .f32) (e : IVec Cert.ReferenceIdeal.S2x800000 32)
    (ws wn : FVec Ideal Cert.ReferenceIdeal.S128x128 .f32) (he : ∀ i, IntOp.cmpi .sge (e i) 0#32 = 1#1) :
    Cert.KernelIdeal.Final.kernelOut x (Cert.KernelIdeal.HostValue.summedRows (F := Ideal) x e)
        (Cert.KernelIdeal.HostValue.countCol (F := Ideal) e) (Cert.KernelIdeal.HostValue.weightT (F := Ideal) ws)
        (Cert.KernelIdeal.HostValue.weightT (F := Ideal) wn)
      = Cert.ReferenceIdeal.HandRun.refOut (F := Ideal) x e ws wn := by
  funext i
  obtain ⟨r, j, rfl⟩ : ∃ (r : Fin 50000) (j : Fin 128), i = ix2 r j := ⟨i 0, i 1, eq_ix2 i⟩
  rw [Cert.KernelIdeal.Final.kernelOut_apply, Cert.ReferenceIdeal.RefRead.refOut_apply, summedRows_eq x e he, countCol_apply]
  exact rowScaled_eq_rowDivided_of NormLaw.normClamp_pos NormLaw.sq_normClamp _ _ _ _ _ _
    Ideal.ofBits_zero_f32 NormLaw.ofBits_normClamp rfl _ _ _ _ _ _

end Cert.Bridge

end
-- ==== Proof.PreEdges.lean ====
/-
  What the precondition says of the edge list.

  The precondition is a conjunction of five `jnp.all`s: four say that the float arguments are finite, the fifth that
  every entry of the edge list is at least zero, read signed. A conjunction of one-bit words that is 1 has every
  conjunct 1, and a reduction by `and` over a whole array that is 1 met a 1 at every entry.
-/
import proofs.«114932_j5806795784424_2_alg».proof.Pre_finite_inputs
import proofs.«114932_j5806795784424_2_alg».proof.Proof.Gen.Pre_finite_inputs
import Idealize.ShloMosaic.Lib.ReduceAll
import Idealize.ShloMosaic.Lib.ValueIdx

noncomputable section

namespace Cert.Pre_finite_inputs.Edges

open Cert.Pre_finite_inputs Cert.Pre_finite_inputs.Gen Idealize.ShloMosaic Idealize.ShloMosaic.ValueIdx

instance : Subsingleton S_.Idx := ⟨fun a b => funext fun d => d.elim0⟩

/-- Under the precondition no entry of the edge list is negative. -/
theorem edges_nonneg {F : FTy → Type} [FloatOps F] (a0 : FVec F S50000x128 .f32) (a1 : FVec F S800000x8 .f32)
    (a2 : IVec S2x800000 32) (a3 a4 : FVec F S128x128 .f32)
    (h : fn (F := F) a0 a1 a2 a3 a4 = fun _ => 1#1) : ∀ i, IntOp.cmpi .sge (a2 i) 0#32 = 1#1 := by
  have h0 := congrFun h ix0
  dsimp only [fn, fn_part1] at h0
  have h1 := (IntOp.andi_eq_one.1 h0).2
  intro i
  exact Host.reduce_andi_all _ _ _ _ ix0 h1 i

end Cert.Pre_finite_inputs.Edges

end
-- ==== Proof.lean ====
/-
  The certificate: a graph layer's dense stage, against its jnp reference, on the extended reals.

  Both programs double the edge list, gather the feature row of the node each doubled edge reads from, add those rows
  into the node each edge adds into, count the edges per node, and then compute, row by row,

    out = lrelu (x · Wsᵀ + lrelu ((summed / max count 1) · Wnᵀ)),   result = out normalised to unit length,

  the reference as `out / max ‖out‖ D` with `D` the f32 value of 1e-12, the kernel (in one Pallas call over ten blocks of
  5000 rows) as `out · rsqrt (max ‖out‖² E)` with `E` the f32 value of 1e-24, which the certificate's table names as
  `D · D` (the source's `EPS * EPS`). The frames of the two kernel programs are the generated ones; the reference's
  run is read back in RefRun. The value claim needs one fact of the inputs beyond finiteness: no edge index is
  negative — the kernel's scatter-add reads a negative index from the end where the reference's segment sum drops it.
  Under it the two result arrays are one function (Bridge): the kernel's from its blocks (KernelFinal, over the
  body's result read at an index in KernelPay and the host's preparation in KernelHost), the reference's read at an
  index in RefRead; the rows agree by the law of NormLaw. Finiteness of the float inputs is not used: the law holds
  at every extended real.
-/
import proofs.«114932_j5806795784424_2_alg».proof.Defs
import proofs.«114932_j5806795784424_2_alg».proof.Proof.Gen.Kernel
import proofs.«114932_j5806795784424_2_alg».proof.Proof.Gen.Kernel.Skeleton
import proofs.«114932_j5806795784424_2_alg».proof.Proof.Gen.Kernel.Launch
import proofs.«114932_j5806795784424_2_alg».proof.Proof.Gen.Kernel.Points
import proofs.«114932_j5806795784424_2_alg».proof.Proof.Gen.Kernel.Frame
import proofs.«114932_j5806795784424_2_alg».proof.Proof.Gen.KernelIdeal
import proofs.«114932_j5806795784424_2_alg».proof.Proof.Gen.KernelIdeal.Skeleton
import proofs.«114932_j5806795784424_2_alg».proof.Proof.Gen.KernelIdeal.Launch
import proofs.«114932_j5806795784424_2_alg».proof.Proof.Gen.KernelIdeal.Points
import proofs.«114932_j5806795784424_2_alg».proof.Proof.Gen.KernelIdeal.Frame
import proofs.«114932_j5806795784424_2_alg».proof.Proof.Gen.KernelIdeal.Value
import proofs.«114932_j5806795784424_2_alg».proof.Proof.Gen.ReferenceIdeal
import proofs.«114932_j5806795784424_2_alg».proof.Proof.Gen.Pre_finite_inputs
import proofs.«114932_j5806795784424_2_alg».proof.Proof.Bridge
import proofs.«114932_j5806795784424_2_alg».proof.Proof.PreEdges
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The one rewrite of the idealization: the table gives the clamp of the sum of squares its named value. -/
theorem preserves : Cert.preserves_Kernel_KernelIdeal :=
  IdealRules.named_const.statement Cert.KernelIdeal.κ "eps_sq" .f32 0x179ABE15#32
    (((5316911940649 : ℝ) / 5316911983139663491615228241121378304 : ℝ) : EReal) rfl

/-- From memories agreeing on the arguments both programs run, and end with one result array: the kernel's blocks
    assemble to the function the reference computes, because the edge list is non-negative under the precondition. -/
theorem algebraic : Cert.algebraic_KernelIdeal_ReferenceIdeal := by
  intro m ρ m' ρ' hpre hagree
  refine ⟨_, Cert.KernelIdeal.Final.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.2.1, (hagree c).2.2.2.1, (hagree c).2.2.2.2]
  exact (Cert.Bridge.out_eq _ _ _ _ (Cert.Pre_finite_inputs.Edges.edges_nonneg _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
